-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000x1 : Shape := ⟨2, ![50000, 1]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x1 .f32) (main_arg15 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S2x600000 32) (main_arg2 : FVec F S50000x1 .f32) (main_arg3 : IVec S50000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg2
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x600000 : Shape := ⟨2, ![2, 600000]⟩
abbrev S50000x1 : Shape := ⟨2, ![50000, 1]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S512x128 : Shape := ⟨2, ![512, 128]⟩
abbrev S512x1 : Shape := ⟨2, ![512, 1]⟩
abbrev S1x1 : Shape := ⟨2, ![1, 1]⟩

abbrev nBuf : Space → Nat
  | .hbm => 72
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000x1, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S1x128, .f32⟩
  | .hbm, ⟨36, _⟩ => ⟨S50000x128, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S1x128, .f32⟩
  | .hbm, ⟨53, _⟩ => ⟨S50000x128, .f32⟩
  | .hbm, ⟨54, _⟩ => ⟨S_, .f32⟩
  | .hbm, ⟨55, _⟩ => ⟨S512x128, .f32⟩
  | .hbm, ⟨56, _⟩ => ⟨S50000x1, .i32⟩
  | .hbm, ⟨57, _⟩ => ⟨S512x128, .f32⟩
  | .hbm, ⟨58, _⟩ => ⟨S_, .f32⟩
  | .hbm, ⟨59, _⟩ => ⟨S50000x1, .f32⟩
  | .hbm, ⟨60, _⟩ => ⟨S_, .f32⟩
  | .hbm, ⟨61, _⟩ => ⟨S512x1, .f32⟩
  | .hbm, ⟨62, _⟩ => ⟨S50000x1, .i32⟩
  | .hbm, ⟨63, _⟩ => ⟨S512x1, .f32⟩
  | .hbm, ⟨64, _⟩ => ⟨S_, .f32⟩
  | .hbm, ⟨65, _⟩ => ⟨S512x1, .f32⟩
  | .hbm, ⟨66, _⟩ => ⟨S512x1, .f32⟩
  | .hbm, ⟨67, _⟩ => ⟨S512x128, .f32⟩
  | .hbm, ⟨68, _⟩ => ⟨S512x128, .f32⟩
  | .hbm, ⟨69, _⟩ => ⟨S1x128, .f32⟩
  | .hbm, ⟨70, _⟩ => ⟨S1x1, .f32⟩
  | .hbm, ⟨71, _⟩ => ⟨S512x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S512x128, .f32⟩
  | .local _ .vmem, ⟨17, _⟩ => ⟨S128x128, .f32⟩
  | .local _ .vmem, ⟨18, _⟩ => ⟨S1x128, .f32⟩
  | .local _ .vmem, ⟨19, _⟩ => ⟨S128x1, .f32⟩
  | .local _ .vmem, ⟨20, _⟩ => ⟨S1x1, .f32⟩
  | .local _ .vmem, ⟨21, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  scatter_S512x1_S50000x1_S50000x1_1_0_0_1_wf : ScatterDims.WF S512x1 S50000x1 S50000x1 [1] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S512x1.size a
  hwx2_5 : ∀ i : grid2.Coords, EltTy.bits .f32 = 32 ∨ (Rect.block (s := S512x1) S512x1.size (cc2_transform_5 i) (hinb2_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S512x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S512x1.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000x1 : Shape := ⟨2, ![50000, 1]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S512x128 : Shape := ⟨2, ![512, 128]⟩
abbrev S512x1 : Shape := ⟨2, ![512, 1]⟩
abbrev S1x1 : Shape := ⟨2, ![1, 1]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000x1, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S50000x128, .f32⟩
  | .hbm, ⟨56, _⟩ => ⟨S600000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S512x128, .f32⟩
  | .hbm, ⟨72, _⟩ => ⟨S50000x1, .i32⟩
  | .hbm, ⟨73, _⟩ => ⟨S512x128, .f32⟩
  | .hbm, ⟨74, _⟩ => ⟨S_, .f32⟩
  | .hbm, ⟨75, _⟩ => ⟨S50000x1, .f32⟩
  | .hbm, ⟨76, _⟩ => ⟨S_, .f32⟩
  | .hbm, ⟨77, _⟩ => ⟨S512x1, .f32⟩
  | .hbm, ⟨78, _⟩ => ⟨S50000x1, .i32⟩
  | .hbm, ⟨79, _⟩ => ⟨S512x1, .f32⟩
  | .hbm, ⟨80, _⟩ => ⟨S_, .f32⟩
  | .hbm, ⟨81, _⟩ => ⟨S512x1, .f32⟩
  | .hbm, ⟨82, _⟩ => ⟨S512x1, .f32⟩
  | .hbm, ⟨83, _⟩ => ⟨S512x128, .f32⟩
  | .hbm, ⟨84, _⟩ => ⟨S512x128, .f32⟩
  | .hbm, ⟨85, _⟩ => ⟨S512x128, .f32⟩
  | .hbm, ⟨86, _⟩ => ⟨S1x128, .f32⟩
  | .hbm, ⟨87, _⟩ => ⟨S512x128, .f32⟩
  | .hbm, ⟨88, _⟩ => ⟨S512x128, .f32⟩
  | .hbm, ⟨89, _⟩ => ⟨S_, .f32⟩
  | .hbm, ⟨90, _⟩ => ⟨S512x128, .f32⟩
  | .hbm, ⟨91, _⟩ => ⟨S512x128, .f32⟩
  | .hbm, ⟨92, _⟩ => ⟨S512x1, .f32⟩
  | .hbm, ⟨93, _⟩ => ⟨S1x1, .f32⟩
  | .hbm, ⟨94, _⟩ => ⟨S512x1, .f32⟩
  | .hbm, ⟨95, _⟩ => ⟨S512x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_1 : Ref sig .tc := ⟨.hbm, 45, rfl⟩
abbrev main_v24 : Ref sig .tc := ⟨.hbm, 46, rfl⟩
abbrev main_v25 : Ref sig .tc := ⟨.hbm, 47, rfl⟩
abbrev main_c_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call1_cst : Ref sig .tc := ⟨.hbm, 63, rfl⟩
abbrev main_call1_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_4 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call2_cst : Ref sig .tc := ⟨.hbm, 89, rfl⟩
abbrev main_call2_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  scatter_S512x1_S50000x1_S50000x1_1_0_0_1_wf : ScatterDims.WF S512x1 S50000x1 S50000x1 [1] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KernelRun.lean ====
/-
  The kernel program's run with its result named: every weakly fair execution of @main terminates, nothing
  faulting, with the result buffer at the contents the last segment boundary gives it (the fold of the host
  stretches and the three regions' write-backs from the launch memory) and the argument arrays as launched.
  The last thread state holds every unscoped buffer at the last boundary's contents; the result buffer is one of
  them, read against the final state like the arguments.
-/
import proofs.«109587_j20572893348711_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v45) = W6 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v45 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.Whole

end
-- ==== Proof.KStages.lean ====
/-
  The host stretches of the kernel program as functions: the source and destination node of each edge (the two
  rows of the edge list), the neighbour aggregation (each node's row plus the rows of the nodes with an edge into
  it: a gather of the source rows, a scatter-add onto the destination rows, and the self term), the mean pooling
  over graphs (per graph the sum of its nodes' rows divided by the larger of its node count and one), and a bias
  vector laid out as one row.
-/
import proofs.«109587_j20572893348711_1_alg».proof.Proof.Gen.KernelIdeal

noncomputable section

namespace Cert.KernelIdeal.Stages

open Idealize.ShloMosaic Cert.KernelIdeal Cert.KernelIdeal.Gen

variable {F : FTy → Type} [FloatOps F]

/-- The source node of each edge: row 0 of the edge list. -/
def src (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000

/-- The destination node of each edge: row 1 of the edge list. -/
def dst (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

/-- Neighbour aggregation with the self term: `h`'s rows gathered at the edges' sources (a negative index counted
    from the end), scatter-added at the edges' destinations onto zeros, plus `h`. -/
def agg (h : (⟨S50000x128, .f32⟩ : BufTy).Contents (Elt F)) (s d : (⟨S600000, .i32⟩ : BufTy).Contents (Elt F)) :
    (⟨S50000x128, .f32⟩ : BufTy).Contents (Elt F) :=
  addf (Host.scatterAdd scatter_S50000x128_S600000x1_S600000x128_1_0_0_1
      (broadcastInDim S50000x128 ![] bcast_S_S50000x128 (constant S_ .f32 0x00000000#32))
      (broadcastInDim S600000x1 ![0] bcast_S600000_S600000x1_0 d)
      (Host.gather gather_S50000x128_S600000x1_S600000x128_1_0_n_n_0_1_1128 h
        (broadcastInDim S600000x1 ![0] bcast_S600000_S600000x1_0
          (select (cmpi .slt s (broadcastInDim S600000 ![] bcast_S_S600000 (constantI S_ 32 0#32)))
            (addi s (broadcastInDim S600000 ![] bcast_S_S600000 (constantI S_ 32 50000#32))) s)))) h

/-- Mean pooling over graphs: the rows of `h` scatter-added by graph number, divided by the larger of the graph's
    node count (ones scatter-added by graph number) and one. -/
def pool (h : (⟨S50000x128, .f32⟩ : BufTy).Contents (Elt F)) (g : (⟨S50000, .i32⟩ : BufTy).Contents (Elt F)) :
    (⟨S512x128, .f32⟩ : BufTy).Contents (Elt F) :=
  Host.divf (Host.scatterAdd scatter_S512x128_S50000x1_S50000x128_1_0_0_1
      (broadcastInDim S512x128 ![] bcast_S_S512x128 (constant S_ .f32 0x00000000#32))
      (broadcastInDim S50000x1 ![0] bcast_S50000_S50000x1_0 g) h)
    (broadcastInDim S512x128 ![0, 1] bcast_S512x1_S512x128_0_1
      (maximumf (Host.scatterAdd scatter_S512x1_S50000x1_S50000x1_1_0_0_1
          (broadcastInDim S512x1 ![] bcast_S_S512x1 (constant S_ .f32 0x00000000#32))
          (broadcastInDim S50000x1 ![0] bcast_S50000_S50000x1_0 g)
          (broadcastInDim S50000x1 ![] bcast_S_S50000x1 (constant S_ .f32 0x3F800000#32)))
        (broadcastInDim S512x1 ![] bcast_S_S512x1 (constant S_ .f32 0x3F800000#32))))

/-- A bias vector laid out as one row. -/
def row128 (b : (⟨S128, .f32⟩ : BufTy).Contents (Elt F)) : (⟨S1x128, .f32⟩ : BufTy).Contents (Elt F) :=
  shapeCast _ b shapeCasts_S128_S1x128

/-- The one-entry bias laid out as one row. -/
def row1 (b : (⟨S1, .f32⟩ : BufTy).Contents (Elt F)) : (⟨S1x1, .f32⟩ : BufTy).Contents (Elt F) :=
  shapeCast _ b shapeCasts_S1_S1x1

end Cert.KernelIdeal.Stages

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibDotGeneral.lean ====
/-
  The host's rank-2 `dot_general` read at an index, at the exact extended reals: when the dimension numbers contract the
  left operand's column axis with the right operand's row axis and keep the other two axes in order, the product is, at
  row `p` and column `q`, the sum over `k` of `lhs (p, k) · rhs (k, q)`, whatever the schedule key — a sum over the
  contracted extent itself, not over the contraction's own index type.
-/
import Idealize.ShloMosaic.PureOps.Ideal.Laws
import Idealize.ShloMosaic.Lib.ValueIdx

noncomputable section

namespace Cert.LibDotGeneral

open Idealize.ShloMosaic Idealize.ShloMosaic.ValueIdx

/-- A product `[a, K] × [K, b] → [a, b]` on the host, at an output index `j`: the four coordinate facts say which operand
    entries the dimension numbers pair at the contraction index; the contraction has one axis, of extent `K`, and the sum
    is re-indexed along it. -/
theorem dotGeneral_ix2 {a K b : Nat} {φ₁ φ₂ : FTy}
    (d : DotDims ⟨2, ![a, K]⟩ ⟨2, ![K, b]⟩ ⟨2, ![a, b]⟩) (prec : Option ContractPrecision) (sched : HostSchedule)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.dotGeneral d prec sched lhs rhs j = ∑ k : Fin K, lhs (ix2 (j 0) k) * rhs (ix2 k (j 1)) := by
  rw [Ideal.dotGeneral_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibDotGeneral

end
-- ==== Proof.LibPerceptron.lean ====
/-
  A two-layer perceptron relu (X·W₁ + b₁)·W₂ + b₂ applied to every row of a matrix, on the extended reals, entry by
  entry, for any number of rows `n`, input width `K`, hidden width `H` and output width `o`:
  hidden (p, k) = max (Σ_l X (p, l) · W₁ (l, k) + b₁ k) 0 and out (p, q) = Σ_k hidden (p, k) · W₂ (k, q) + b₂ q,
  the zero being the value of the all-zero word. Two programs' spellings of it are read here as this one
  function: a vector unit's (two matrix products into zero accumulators, the biases kept as one-row matrices
  and broadcast down the rows, the format changes the identity on extended reals) and a host's (two
  dot_generals, each bias laid out as a row and broadcast). Both readings hold at all extents, since each entry's sums run over the same pairs of entries; nothing has to be
  finite. An entry depends on one row of `X` only, so an entry of the perceptron of a band of rows is the entry of the
  whole perceptron it sits at (`layer_entry_congr`): what a row-banded kernel needs between its block and the array.
-/
import Idealize.ShloMosaic.PureOps.Ideal.Laws
import Idealize.ShloMosaic.Lib.ValueIdx
import Idealize.ShloMosaic.Lib.ValueLayout
import Idealize.ShloMosaic.Lib.Pipeline.Value
import proofs.«109587_j20572893348711_1_alg».proof.Proof.LibMatmul
import proofs.«109587_j20572893348711_1_alg».proof.Proof.LibDotGeneral

noncomputable section

namespace Cert.Perceptron

open Idealize.ShloMosaic Idealize.ShloMosaic.ValueIdx

/-- The value of the all-zero f32 word. -/
abbrev zero : Ideal .f32 := Ideal.ofBits .f32 0x00000000#32

/-- The hidden layer: row `p` of `X` against column `k` of `W₁`, plus the bias, cut off below at zero. -/
def hidden {n K H : Nat} (X : FVec Ideal ⟨2, ![n, K]⟩ .f32) (W1 : FVec Ideal ⟨2, ![K, H]⟩ .f32)
    (b1 : FVec Ideal ⟨1, ![H]⟩ .f32) : FVec Ideal ⟨2, ![n, H]⟩ .f32 :=
  fun j => max ((∑ l : Fin K, X (ix2 (j 0) l) * W1 (ix2 l (j 1))) + b1 (ix1 (j 1))) zero

/-- The output layer over the hidden one. -/
def layer {n K H o : Nat} (X : FVec Ideal ⟨2, ![n, K]⟩ .f32) (W1 : FVec Ideal ⟨2, ![K, H]⟩ .f32)
    (b1 : FVec Ideal ⟨1, ![H]⟩ .f32) (W2 : FVec Ideal ⟨2, ![H, o]⟩ .f32) (b2 : FVec Ideal ⟨1, ![o]⟩ .f32) :
    FVec Ideal ⟨2, ![n, o]⟩ .f32 :=
  fun j => (∑ k : Fin H, hidden X W1 b1 (ix2 (j 0) k) * W2 (ix2 k (j 1))) + b2 (ix1 (j 1))

/-- An entry of the perceptron of a band of rows equals the entry of the whole perceptron it sits at: if row `y 0` of
    `X'` is row `i 0` of `X`, the two share the hidden layer's weights and bias, and column `y 1` of the output
    weights and bias is column `i 1`, the two entries are sums of equal terms. -/
theorem layer_entry_congr {h n K H o o' : Nat}
    (X' : FVec Ideal ⟨2, ![h, K]⟩ .f32) (W1' : FVec Ideal ⟨2, ![K, H]⟩ .f32) (b1' : FVec Ideal ⟨1, ![H]⟩ .f32)
    (W2' : FVec Ideal ⟨2, ![H, o]⟩ .f32) (b2' : FVec Ideal ⟨1, ![o]⟩ .f32)
    (X : FVec Ideal ⟨2, ![n, K]⟩ .f32) (W1 : FVec Ideal ⟨2, ![K, H]⟩ .f32) (b1 : FVec Ideal ⟨1, ![H]⟩ .f32)
    (W2 : FVec Ideal ⟨2, ![H, o']⟩ .f32) (b2 : FVec Ideal ⟨1, ![o']⟩ .f32)
    (y : (⟨2, ![h, o]⟩ : Shape).Idx) (i : (⟨2, ![n, o']⟩ : Shape).Idx)
    (hX : ∀ l : Fin K, X' (ix2 (y 0) l) = X (ix2 (i 0) l)) (hW1 : W1' = W1) (hb1 : b1' = b1)
    (hW2 : ∀ k : Fin H, W2' (ix2 k (y 1)) = W2 (ix2 k (i 1))) (hb2 : b2' (ix1 (y 1)) = b2 (ix1 (i 1))) :
    layer X' W1' b1' W2' b2' y = layer X W1 b1 W2 b2 i := by
  subst hW1 hb1
  unfold layer hidden
  refine congrArg₂ (· + ·) (Finset.sum_congr rfl fun k _ => congrArg₂ (· * ·) ?_ (hW2 k)) hb2
  exact congrArg (fun s => max (s + b1' (ix1 k)) zero) (Finset.sum_congr rfl fun l _ => congrArg₂ (· * ·) (hX l) rfl)

/-- The row of a one-row matrix as a vector. -/
def rowOf {b : Nat} (v : FVec Ideal ⟨2, ![1, b]⟩ .f32) : FVec Ideal ⟨1, ![b]⟩ .f32 := fun i => v (ix2 (0 : Fin 1) (i 0))

/-- Dimension numbers of a plain product `[a, K] × [K, b] → [a, b]`: one contracted axis of extent `K`, the left
    operand's columns against the right operand's rows, the other two axes kept in order. -/
structure PlainDot {a K b : Nat} (d : DotDims ⟨2, ![a, K]⟩ ⟨2, ![K, b]⟩ ⟨2, ![a, b]⟩) : Prop where
  hr : d.contr.rank = 1
  hs : d.contr.size ⟨0, by omega⟩ = K
  hl0 : ∀ j q, (d.lhsIdx j q 0).val = (j 0).val
  hl1 : ∀ j q, (d.lhsIdx j q 1).val = (q ⟨0, by omega⟩).val
  hr0 : ∀ j q, (d.rhsIdx j q 0).val = (q ⟨0, by omega⟩).val
  hr1 : ∀ j q, (d.rhsIdx j q 1).val = (j 1).val

/-- The vector unit's spelling is the perceptron. -/
theorem kernel_form {n K H o : Nat}
    (d1 : DotDims ⟨2, ![n, K]⟩ ⟨2, ![K, H]⟩ ⟨2, ![n, H]⟩) (p1 : PlainDot d1)
    (d2 : DotDims ⟨2, ![n, H]⟩ ⟨2, ![H, o]⟩ ⟨2, ![n, o]⟩) (p2 : PlainDot d2)
    (hx : (⟨2, ![n, K]⟩ : Shape).ShapeCasts ⟨2, ![n, K]⟩)
    (hc1 : (⟨2, ![1, H]⟩ : Shape).ShapeCasts ⟨2, ![1, H]⟩) (hb1 : (⟨2, ![1, H]⟩ : Shape).Broadcasts ⟨2, ![n, H]⟩)
    (hc2 : (⟨2, ![1, o]⟩ : Shape).ShapeCasts ⟨2, ![1, o]⟩) (hb2 : (⟨2, ![1, o]⟩ : Shape).Broadcasts ⟨2, ![n, o]⟩)
    (hlt : FTy.bits .bf16 < FTy.bits .f32)
    (x0 : FVec Ideal ⟨2, ![n, K]⟩ .f32) (x1 : FVec Ideal ⟨2, ![K, H]⟩ .f32) (x2 : FVec Ideal ⟨2, ![1, H]⟩ .f32)
    (x3 : FVec Ideal ⟨2, ![H, o]⟩ .f32) (x4 : FVec Ideal ⟨2, ![1, o]⟩ .f32) :
    addf (matmul d2 none
        (truncf .bf16 (maximumf (addf (matmul d1 none (truncf .bf16 (shapeCast ⟨2, ![n, K]⟩ x0 hx) hlt) (truncf .bf16 x1 hlt)
            (constant ⟨2, ![n, H]⟩ .f32 0x00000000#32))
          (broadcastTo ⟨2, ![n, H]⟩ (shapeCast ⟨2, ![1, H]⟩ x2 hc1) hb1))
          (broadcast ⟨2, ![n, H]⟩ (Scalar.ofBits (F := Ideal) .f32 0x00000000#32))) hlt)
        (truncf .bf16 x3 hlt) (constant ⟨2, ![n, o]⟩ .f32 0x00000000#32))
      (broadcastTo ⟨2, ![n, o]⟩ (shapeCast ⟨2, ![1, o]⟩ x4 hc2) hb2)
    = layer x0 x1 (rowOf x2) x3 (rowOf x4) := by
  funext j
  obtain ⟨p, q, rfl⟩ : ∃ (p : Fin n) (q : Fin o), j = ix2 p q := ⟨j 0, j 1, eq_ix2 j⟩
  rw [shapeCast_self, shapeCast_self, shapeCast_self]
  show FloatOps.matmul d2 none _ _ (constant ⟨2, ![n, o]⟩ .f32 0x00000000#32) (ix2 p q) + broadcastTo ⟨2, ![n, o]⟩ x4 hb2 (ix2 p q) = _
  rw [Cert.LibMatmul.matmul_zero_ix2 d2 none p2.hr p2.hs p2.hl0 p2.hl1 p2.hr0 p2.hr1, broadcastTo_1b_ab_apply]
  unfold layer
  refine congrArg₂ (· + ·) (Finset.sum_congr rfl fun k _ => congrArg₂ (· * ·) ?_ rfl) rfl
  show max (FloatOps.matmul d1 none _ _ (constant ⟨2, ![n, H]⟩ .f32 0x00000000#32) (ix2 p k) + broadcastTo ⟨2, ![n, H]⟩ x2 hb1 (ix2 p k)) zero = _
  rw [Cert.LibMatmul.matmul_zero_ix2 d1 none p1.hr p1.hs p1.hl0 p1.hl1 p1.hr0 p1.hr1, broadcastTo_1b_ab_apply]
  rfl

/-- The host's spelling is the perceptron. -/
theorem host_form {n K H o : Nat}
    (d1 : DotDims ⟨2, ![n, K]⟩ ⟨2, ![K, H]⟩ ⟨2, ![n, H]⟩) (p1 : PlainDot d1)
    (d2 : DotDims ⟨2, ![n, H]⟩ ⟨2, ![H, o]⟩ ⟨2, ![n, o]⟩) (p2 : PlainDot d2)
    (hr1 : (⟨1, ![H]⟩ : Shape).BroadcastsInDim ⟨2, ![1, H]⟩ (![1] : Fin 1 → Fin 2))
    (hd1 : (⟨2, ![1, H]⟩ : Shape).BroadcastsInDim ⟨2, ![n, H]⟩ (![0, 1] : Fin 2 → Fin 2))
    (hz : (⟨0, ![]⟩ : Shape).BroadcastsInDim ⟨2, ![n, H]⟩ (![] : Fin 0 → Fin 2))
    (hr2 : (⟨1, ![o]⟩ : Shape).BroadcastsInDim ⟨2, ![1, o]⟩ (![1] : Fin 1 → Fin 2))
    (hd2 : (⟨2, ![1, o]⟩ : Shape).BroadcastsInDim ⟨2, ![n, o]⟩ (![0, 1] : Fin 2 → Fin 2))
    (X : FVec Ideal ⟨2, ![n, K]⟩ .f32) (W1 : FVec Ideal ⟨2, ![K, H]⟩ .f32) (b1 : FVec Ideal ⟨1, ![H]⟩ .f32)
    (W2 : FVec Ideal ⟨2, ![H, o]⟩ .f32) (b2 : FVec Ideal ⟨1, ![o]⟩ .f32) :
    addf (Host.dotGeneral d2 none
        (maximumf (addf (Host.dotGeneral d1 none X W1)
            (broadcastInDim ⟨2, ![n, H]⟩ ![0, 1] hd1 (broadcastInDim ⟨2, ![1, H]⟩ ![1] hr1 b1)))
          (broadcastInDim ⟨2, ![n, H]⟩ ![] hz (constant (F := Ideal) ⟨0, ![]⟩ .f32 0x00000000#32))) W2)
      (broadcastInDim ⟨2, ![n, o]⟩ ![0, 1] hd2 (broadcastInDim ⟨2, ![1, o]⟩ ![1] hr2 b2))
    = layer X W1 b1 W2 b2 := by
  funext j
  obtain ⟨p, q, rfl⟩ : ∃ (p : Fin n) (q : Fin o), j = ix2 p q := ⟨j 0, j 1, eq_ix2 j⟩
  have bias2 : broadcastInDim ⟨2, ![n, o]⟩ ![0, 1] hd2 (broadcastInDim ⟨2, ![1, o]⟩ ![1] hr2 b2) (ix2 p q) = b2 (ix1 q) := by
    rw [broadcastInDim_apply _ hd2 _ (ix2 p q) (ix2 (0 : Fin 1) q) (fun a => by
          match a with
          | ⟨0, _⟩ => show 0 = if (1 : Nat) = 1 then 0 else p.val; rw [if_pos rfl]
          | ⟨1, _⟩ =>
            show q.val = if o = 1 then 0 else q.val
            split
            · have := q.isLt; omega
            · rfl),
      broadcastInDim_apply _ hr2 b2 (ix2 (0 : Fin 1) q) (ix1 q) (fun a => by
          match a with
          | ⟨0, _⟩ =>
            show q.val = if o = 1 then 0 else q.val
            split
            · have := q.isLt; omega
            · rfl)]
  have bias1 : ∀ k : Fin H, broadcastInDim ⟨2, ![n, H]⟩ ![0, 1] hd1 (broadcastInDim ⟨2, ![1, H]⟩ ![1] hr1 b1) (ix2 p k) = b1 (ix1 k) := fun k => by
    rw [broadcastInDim_apply _ hd1 _ (ix2 p k) (ix2 (0 : Fin 1) k) (fun a => by
          match a with
          | ⟨0, _⟩ => show 0 = if (1 : Nat) = 1 then 0 else p.val; rw [if_pos rfl]
          | ⟨1, _⟩ =>
            show k.val = if H = 1 then 0 else k.val
            split
            · have := k.isLt; omega
            · rfl),
      broadcastInDim_apply _ hr1 b1 (ix2 (0 : Fin 1) k) (ix1 k) (fun a => by
          match a with
          | ⟨0, _⟩ =>
            show k.val = if H = 1 then 0 else k.val
            split
            · have := k.isLt; omega
            · rfl)]
  show FloatOps.dotGeneral d2 none .single _ W2 (ix2 p q) + _ = _
  rw [Cert.LibDotGeneral.dotGeneral_ix2 d2 none .single p2.hr p2.hs p2.hl0 p2.hl1 p2.hr0 p2.hr1, bias2]
  unfold layer
  refine congrArg₂ (· + ·) (Finset.sum_congr rfl fun k _ => congrArg₂ (· * ·) ?_ rfl) rfl
  show max (FloatOps.dotGeneral d1 none .single X W1 (ix2 p k)
      + broadcastInDim ⟨2, ![n, H]⟩ ![0, 1] hd1 (broadcastInDim ⟨2, ![1, H]⟩ ![1] hr1 b1) (ix2 p k)) zero = hidden X W1 b1 (ix2 p k)
  rw [Cert.LibDotGeneral.dotGeneral_ix2 d1 none .single p1.hr p1.hs p1.hl0 p1.hl1 p1.hr0 p1.hr1, bias1 k]
  rfl

end Cert.Perceptron

end
-- ==== Proof.KernelDots.lean ====
/-
  The kernel program's three matrix products are plain products: each contracts the left operand's column axis
  (extent 128) with the right operand's row axis and keeps the other two axes in order.
-/
import proofs.«109587_j20572893348711_1_alg».proof.Proof.Gen.KernelIdeal
import proofs.«109587_j20572893348711_1_alg».proof.Proof.LibPerceptron

noncomputable section

namespace Cert.KernelIdeal.Dots

open Idealize.ShloMosaic Cert.KernelIdeal Cert.KernelIdeal.Gen Cert.Perceptron

/-- `dot_S5000x128_S128x128_S5000x128_1_0_0_1_n_n` pairs the left operand's columns with the right operand's rows. -/
theorem band : PlainDot dot_S5000x128_S128x128_S5000x128_1_0_0_1_n_n where
  hr := rfl
  hs := rfl
  hl0 := fun j q => by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  hl1 := fun j q => dot_S5000x128_S128x128_S5000x128_1_0_0_1_n_n.lhsIdx_val_of_single rfl j q
  hr0 := fun j q => dot_S5000x128_S128x128_S5000x128_1_0_0_1_n_n.rhsIdx_val_of_single rfl j q
  hr1 := fun j q => by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- `dot_S512x128_S128x128_S512x128_1_0_0_1_n_n` pairs the left operand's columns with the right operand's rows. -/
theorem pooled : PlainDot dot_S512x128_S128x128_S512x128_1_0_0_1_n_n where
  hr := rfl
  hs := rfl
  hl0 := fun j q => by
    unfold DotDims.lhsIdx
    rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
    rfl
  hl1 := fun j q => dot_S512x128_S128x128_S512x128_1_0_0_1_n_n.lhsIdx_val_of_single rfl j q
  hr0 := fun j q => dot_S512x128_S128x128_S512x128_1_0_0_1_n_n.rhsIdx_val_of_single rfl j q
  hr1 := fun j q => by
    unfold DotDims.rhsIdx
    rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
    rfl

/-- `dot_S512x128_S128x1_S512x1_1_0_0_1_n_n` pairs the left operand's columns with the right operand's rows. -/
theorem pooledOut : PlainDot dot_S512x128_S128x1_S512x1_1_0_0_1_n_n where
  hr := rfl
  hs := rfl
  hl0 := fun j q => by
    unfold DotDims.lhsIdx
    rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
    rfl
  hl1 := fun j q => dot_S512x128_S128x1_S512x1_1_0_0_1_n_n.lhsIdx_val_of_single rfl j q
  hr0 := fun j q => dot_S512x128_S128x1_S512x1_1_0_0_1_n_n.rhsIdx_val_of_single rfl j q
  hr1 := fun j q => by
    unfold DotDims.rhsIdx
    rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
    rfl

end Cert.KernelIdeal.Dots

end
-- ==== Proof.Band0.lean ====
/-
  Region 0 of the kernel program: a grid of ten points, point t taking rows 5000·t … 5000·t + 4999 of its
  [50000, 128] operand and the whole of the two weight matrices and the two one-row biases, and writing the same
  band of rows of its [50000, 128] result. The body's value at a point is the perceptron of that band; an entry
  of the perceptron of a band is the entry of the perceptron of the whole operand it sits at; the ten bands
  tile the result. So after the region the result array is the perceptron of the operand array as the region
  found it — for any contents found.
-/
import proofs.«109587_j20572893348711_1_alg».proof.Proof.Gen.KernelIdeal.Frame
import proofs.«109587_j20572893348711_1_alg».proof.Proof.KernelDots
import Idealize.ShloMosaic.Lib.Pipeline.Value

set_option maxRecDepth 16384

noncomputable section

namespace Cert.KernelIdeal.Band0

open Idealize.ShloMosaic Idealize.ShloMosaic.TcCoe Idealize.SL.Sem Idealize.ShloMosaic.ValueIdx
open Cert.KernelIdeal Cert.KernelIdeal.Gen Cert.Perceptron

variable (V : (c : Dev nD) → (b : Ref sig .tc) → Buf (Elt Ideal) ((c : Thread nD τ).loc b))

theorem hz : (![0, 0] : Fin 2 → Nat) = fun _ => 0 := funext fun a => by fin_cases a <;> rfl

/-- The body's value is the perceptron of the blocks it loads. -/
theorem pay_eq (x0 : Vec Ideal S5000x128 .f32) (x1 : Vec Ideal S128x128 .f32) (x2 : Vec Ideal S1x128 .f32)
    (x3 : Vec Ideal S128x128 .f32) (x4 : Vec Ideal S1x128 .f32) :
    k0_pay1 x0 x1 x2 x3 x4 = layer x0 x1 (rowOf x2) x3 (rowOf x4) :=
  kernel_form _ Dots.band _ Dots.band _ _ _ _ _ _ x0 x1 x2 x3 x4

/-- What the region leaves in its result array: the perceptron of the arrays it found. -/
def G (c : Dev nD) : S50000x128.Idx → Elt Ideal .f32 :=
  layer (V c main_v14 : S50000x128.Idx → Elt Ideal .f32) (V c main_arg4 : S128x128.Idx → Elt Ideal .f32)
    (rowOf (V c main_v15 : S1x128.Idx → Elt Ideal .f32)) (V c main_arg6 : S128x128.Idx → Elt Ideal .f32)
    (rowOf (V c main_v16 : S1x128.Idx → Elt Ideal .f32))

/-- The index maps over the grid: the operand's and the result's bands move together, band t at point t; the weights
    and biases stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The weights' block at any point is the whole matrix. -/
theorem blk1 (c : Dev nD) (t : Fin cfg0.N) : iblk0 V c 1 t = (V c main_arg4 : S128x128.Idx → Elt Ideal .f32) := by
  obtain ⟨-, -, e0, e1, -⟩ := idx_facts t
  funext z
  show V c main_arg4 (((cfg0.win 1).blk t).view.emb z) = V c main_arg4 z
  refine congrArg _ (funext fun a => Fin.ext ?_)
  match a with
  | ⟨0, _⟩ => show win0_1.index t (0 : Fin 2) * 128 + 1 * (z 0).val = (z 0).val; omega
  | ⟨1, _⟩ => show win0_1.index t (1 : Fin 2) * 128 + 1 * (z 1).val = (z 1).val; omega

theorem blk2 (c : Dev nD) (t : Fin cfg0.N) : iblk0 V c 2 t = (V c main_v15 : S1x128.Idx → Elt Ideal .f32) := by
  obtain ⟨-, -, -, -, e0, e1, -⟩ := idx_facts t
  funext z
  show V c main_v15 (((cfg0.win 2).blk t).view.emb z) = V c main_v15 z
  refine congrArg _ (funext fun a => Fin.ext ?_)
  match a with
  | ⟨0, _⟩ => show win0_2.index t (0 : Fin 2) * 1 + 1 * (z 0).val = (z 0).val; omega
  | ⟨1, _⟩ => show win0_2.index t (1 : Fin 2) * 128 + 1 * (z 1).val = (z 1).val; omega

theorem blk3 (c : Dev nD) (t : Fin cfg0.N) : iblk0 V c 3 t = (V c main_arg6 : S128x128.Idx → Elt Ideal .f32) := by
  obtain ⟨-, -, -, -, -, -, e0, e1, -⟩ := idx_facts t
  funext z
  show V c main_arg6 (((cfg0.win 3).blk t).view.emb z) = V c main_arg6 z
  refine congrArg _ (funext fun a => Fin.ext ?_)
  match a with
  | ⟨0, _⟩ => show win0_3.index t (0 : Fin 2) * 128 + 1 * (z 0).val = (z 0).val; omega
  | ⟨1, _⟩ => show win0_3.index t (1 : Fin 2) * 128 + 1 * (z 1).val = (z 1).val; omega

theorem blk4 (c : Dev nD) (t : Fin cfg0.N) : iblk0 V c 4 t = (V c main_v16 : S1x128.Idx → Elt Ideal .f32) := by
  obtain ⟨-, -, -, -, -, -, -, -, e0, e1, -⟩ := idx_facts t
  funext z
  show V c main_v16 (((cfg0.win 4).blk t).view.emb z) = V c main_v16 z
  refine congrArg _ (funext fun a => Fin.ext ?_)
  match a with
  | ⟨0, _⟩ => show win0_4.index t (0 : Fin 2) * 1 + 1 * (z 0).val = (z 0).val; omega
  | ⟨1, _⟩ => show win0_4.index t (1 : Fin 2) * 128 + 1 * (z 1).val = (z 1).val; omega

/-- Row p of the operand's band at point t is the row of the operand array that row p of the result's band sits at. -/
theorem blk0_row (c : Dev nD) (t : Fin cfg0.N) (y : S5000x128.Idx) (l : Fin 128) :
    iblk0 V c 0 t (ix2 (y 0) l) = (V c main_v14 : S50000x128.Idx → Elt Ideal .f32) (ix2 ((((cfg0.win 5).blk t).view.emb y) 0) l) := by
  obtain ⟨e0, e1, -, -, -, -, -, -, -, -, e5, -⟩ := idx_facts t
  show V c main_v14 (((cfg0.win 0).blk t).view.emb (ix2 (y 0) l)) = V c main_v14 _
  refine congrArg _ (funext fun a => Fin.ext ?_)
  match a with
  | ⟨0, _⟩ => show win0_0.index t (0 : Fin 2) * 5000 + 1 * (y 0).val = win0_5.index t (0 : Fin 2) * 5000 + 1 * (y 0).val; omega
  | ⟨1, _⟩ => show win0_0.index t (1 : Fin 2) * 128 + 1 * l.val = l.val; omega

/-- A column of the result's band is the same column of the result array. -/
theorem emb5_col (t : Fin cfg0.N) (y : S5000x128.Idx) : ((((cfg0.win 5).blk t).view.emb y) 1) = y 1 := by
  obtain ⟨-, -, -, -, -, -, -, -, -, -, -, e5⟩ := idx_facts t
  refine Fin.ext ?_
  show win0_5.index t (1 : Fin 2) * 128 + 1 * (y 1).val = (y 1).val
  omega

/-- What point t writes back is band t of the perceptron of the arrays the region found. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [pay_eq, blk1, blk2, blk3, blk4]
  funext y
  show layer (iblk0 V c 0 t) _ _ _ _ y = G V c (((cfg0.win 5).blk t).view.emb y)
  unfold G
  refine layer_entry_congr _ _ _ _ _ _ _ _ _ _ y _ (fun l => blk0_row V c t y l) rfl rfl (fun k => ?_) ?_
  · rw [emb5_col]
  · rw [emb5_col]

/-- An index of the result array is in point t's band iff each coordinate is in the band's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v17).slice (win0_5.rect t)).set ↔ _
  rw [View.set_slice_whole, Rect.mem_set_unit]
  exact Iff.rfl

/-- Every row of the result lies in the band of the point that its row number divided by 5000 names. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 5000 < cfg0.N := by show _ < grid0.N; rw [N_0]; omega
  obtain ⟨-, -, -, -, -, -, -, -, -, -, e5, e6⟩ := idx_facts ⟨(i 0).val / 5000, hN⟩
  refine ⟨⟨(i 0).val / 5000, hN⟩, flush0_5 _, ?_⟩
  rw [mem_blk]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e5]; show (i 0).val / 5000 * 5000 ≤ (i 0).val ∧ (i 0).val < (i 0).val / 5000 * 5000 + 5000; omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    rw [e6]; omega

/-- The result array after the region. -/
theorem final (c : Dev nD) : (dat0 V c).arrAt 5 cfg0.N = G V c :=
  (dat0 V c).arrAt_eq_of_cover 5 (G V c) (fun t _ => flushed_eq V c t) (cover)

end Cert.KernelIdeal.Band0

end
-- ==== Proof.Band1.lean ====
/-
  Region 1 of the kernel program: a grid of ten points, point t taking rows 5000·t … 5000·t + 4999 of its
  [50000, 128] operand and the whole of the two weight matrices and the two one-row biases, and writing the same
  band of rows of its [50000, 128] result. The body's value at a point is the perceptron of that band; an entry
  of the perceptron of a band is the entry of the perceptron of the whole operand it sits at; the ten bands
  tile the result. So after the region the result array is the perceptron of the operand array as the region
  found it — for any contents found.
-/
import proofs.«109587_j20572893348711_1_alg».proof.Proof.Gen.KernelIdeal.Frame
import proofs.«109587_j20572893348711_1_alg».proof.Proof.KernelDots
import Idealize.ShloMosaic.Lib.Pipeline.Value

set_option maxRecDepth 16384

noncomputable section

namespace Cert.KernelIdeal.Band1

open Idealize.ShloMosaic Idealize.ShloMosaic.TcCoe Idealize.SL.Sem Idealize.ShloMosaic.ValueIdx
open Cert.KernelIdeal Cert.KernelIdeal.Gen Cert.Perceptron

variable (V : (c : Dev nD) → (b : Ref sig .tc) → Buf (Elt Ideal) ((c : Thread nD τ).loc b))

theorem hz : (![0, 0] : Fin 2 → Nat) = fun _ => 0 := funext fun a => by fin_cases a <;> rfl

/-- The body's value is the perceptron of the blocks it loads. -/
theorem pay_eq (x0 : Vec Ideal S5000x128 .f32) (x1 : Vec Ideal S128x128 .f32) (x2 : Vec Ideal S1x128 .f32)
    (x3 : Vec Ideal S128x128 .f32) (x4 : Vec Ideal S1x128 .f32) :
    k1_pay1 x0 x1 x2 x3 x4 = layer x0 x1 (rowOf x2) x3 (rowOf x4) :=
  kernel_form _ Dots.band _ Dots.band _ _ _ _ _ _ x0 x1 x2 x3 x4

/-- What the region leaves in its result array: the perceptron of the arrays it found. -/
def G (c : Dev nD) : S50000x128.Idx → Elt Ideal .f32 :=
  layer (V c main_v28 : S50000x128.Idx → Elt Ideal .f32) (V c main_arg8 : S128x128.Idx → Elt Ideal .f32)
    (rowOf (V c main_v29 : S1x128.Idx → Elt Ideal .f32)) (V c main_arg10 : S128x128.Idx → Elt Ideal .f32)
    (rowOf (V c main_v30 : S1x128.Idx → Elt Ideal .f32))

/-- The index maps over the grid: the operand's and the result's bands move together, band t at point t; the weights
    and biases stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The weights' block at any point is the whole matrix. -/
theorem blk1 (c : Dev nD) (t : Fin cfg1.N) : iblk1 V c 1 t = (V c main_arg8 : S128x128.Idx → Elt Ideal .f32) := by
  obtain ⟨-, -, e0, e1, -⟩ := idx_facts t
  funext z
  show V c main_arg8 (((cfg1.win 1).blk t).view.emb z) = V c main_arg8 z
  refine congrArg _ (funext fun a => Fin.ext ?_)
  match a with
  | ⟨0, _⟩ => show win1_1.index t (0 : Fin 2) * 128 + 1 * (z 0).val = (z 0).val; omega
  | ⟨1, _⟩ => show win1_1.index t (1 : Fin 2) * 128 + 1 * (z 1).val = (z 1).val; omega

theorem blk2 (c : Dev nD) (t : Fin cfg1.N) : iblk1 V c 2 t = (V c main_v29 : S1x128.Idx → Elt Ideal .f32) := by
  obtain ⟨-, -, -, -, e0, e1, -⟩ := idx_facts t
  funext z
  show V c main_v29 (((cfg1.win 2).blk t).view.emb z) = V c main_v29 z
  refine congrArg _ (funext fun a => Fin.ext ?_)
  match a with
  | ⟨0, _⟩ => show win1_2.index t (0 : Fin 2) * 1 + 1 * (z 0).val = (z 0).val; omega
  | ⟨1, _⟩ => show win1_2.index t (1 : Fin 2) * 128 + 1 * (z 1).val = (z 1).val; omega

theorem blk3 (c : Dev nD) (t : Fin cfg1.N) : iblk1 V c 3 t = (V c main_arg10 : S128x128.Idx → Elt Ideal .f32) := by
  obtain ⟨-, -, -, -, -, -, e0, e1, -⟩ := idx_facts t
  funext z
  show V c main_arg10 (((cfg1.win 3).blk t).view.emb z) = V c main_arg10 z
  refine congrArg _ (funext fun a => Fin.ext ?_)
  match a with
  | ⟨0, _⟩ => show win1_3.index t (0 : Fin 2) * 128 + 1 * (z 0).val = (z 0).val; omega
  | ⟨1, _⟩ => show win1_3.index t (1 : Fin 2) * 128 + 1 * (z 1).val = (z 1).val; omega

theorem blk4 (c : Dev nD) (t : Fin cfg1.N) : iblk1 V c 4 t = (V c main_v30 : S1x128.Idx → Elt Ideal .f32) := by
  obtain ⟨-, -, -, -, -, -, -, -, e0, e1, -⟩ := idx_facts t
  funext z
  show V c main_v30 (((cfg1.win 4).blk t).view.emb z) = V c main_v30 z
  refine congrArg _ (funext fun a => Fin.ext ?_)
  match a with
  | ⟨0, _⟩ => show win1_4.index t (0 : Fin 2) * 1 + 1 * (z 0).val = (z 0).val; omega
  | ⟨1, _⟩ => show win1_4.index t (1 : Fin 2) * 128 + 1 * (z 1).val = (z 1).val; omega

/-- Row p of the operand's band at point t is the row of the operand array that row p of the result's band sits at. -/
theorem blk0_row (c : Dev nD) (t : Fin cfg1.N) (y : S5000x128.Idx) (l : Fin 128) :
    iblk1 V c 0 t (ix2 (y 0) l) = (V c main_v28 : S50000x128.Idx → Elt Ideal .f32) (ix2 ((((cfg1.win 5).blk t).view.emb y) 0) l) := by
  obtain ⟨e0, e1, -, -, -, -, -, -, -, -, e5, -⟩ := idx_facts t
  show V c main_v28 (((cfg1.win 0).blk t).view.emb (ix2 (y 0) l)) = V c main_v28 _
  refine congrArg _ (funext fun a => Fin.ext ?_)
  match a with
  | ⟨0, _⟩ => show win1_0.index t (0 : Fin 2) * 5000 + 1 * (y 0).val = win1_5.index t (0 : Fin 2) * 5000 + 1 * (y 0).val; omega
  | ⟨1, _⟩ => show win1_0.index t (1 : Fin 2) * 128 + 1 * l.val = l.val; omega

/-- A column of the result's band is the same column of the result array. -/
theorem emb5_col (t : Fin cfg1.N) (y : S5000x128.Idx) : ((((cfg1.win 5).blk t).view.emb y) 1) = y 1 := by
  obtain ⟨-, -, -, -, -, -, -, -, -, -, -, e5⟩ := idx_facts t
  refine Fin.ext ?_
  show win1_5.index t (1 : Fin 2) * 128 + 1 * (y 1).val = (y 1).val
  omega

/-- What point t writes back is band t of the perceptron of the arrays the region found. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [pay_eq, blk1, blk2, blk3, blk4]
  funext y
  show layer (iblk1 V c 0 t) _ _ _ _ y = G V c (((cfg1.win 5).blk t).view.emb y)
  unfold G
  refine layer_entry_congr _ _ _ _ _ _ _ _ _ _ y _ (fun l => blk0_row V c t y l) rfl rfl (fun k => ?_) ?_
  · rw [emb5_col]
  · rw [emb5_col]

/-- An index of the result array is in point t's band iff each coordinate is in the band's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v31).slice (win1_5.rect t)).set ↔ _
  rw [View.set_slice_whole, Rect.mem_set_unit]
  exact Iff.rfl

/-- Every row of the result lies in the band of the point that its row number divided by 5000 names. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 5000 < cfg1.N := by show _ < grid1.N; rw [N_1]; omega
  obtain ⟨-, -, -, -, -, -, -, -, -, -, e5, e6⟩ := idx_facts ⟨(i 0).val / 5000, hN⟩
  refine ⟨⟨(i 0).val / 5000, hN⟩, flush1_5 _, ?_⟩
  rw [mem_blk]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e5]; show (i 0).val / 5000 * 5000 ≤ (i 0).val ∧ (i 0).val < (i 0).val / 5000 * 5000 + 5000; omega
  | ⟨1, _⟩ =>
    show win1_5.index ⟨(i 0).val / 5000, hN⟩ (1 : Fin 2) * 128 ≤ (i 1).val ∧ (i 1).val < win1_5.index ⟨(i 0).val / 5000, hN⟩ (1 : Fin 2) * 128 + 128
    rw [e6]; omega

/-- The result array after the region. -/
theorem final (c : Dev nD) : (dat1 V c).arrAt 5 cfg1.N = G V c :=
  (dat1 V c).arrAt_eq_of_cover 5 (G V c) (fun t _ => flushed_eq V c t) (cover)

end Cert.KernelIdeal.Band1

end
-- ==== Proof.Band2.lean ====
/-
  Region 2 of the kernel program: one grid point, which takes the whole [512, 128] pooled operand, the [128, 128]
  and [128, 1] weight matrices and the one-row biases, and writes the whole [512, 1] result. The body's value is the
  perceptron of what it loads, and its one block is the whole array. So after the region the result array is the
  perceptron of the operand array as the region found it — for any contents found.
-/
import proofs.«109587_j20572893348711_1_alg».proof.Proof.Gen.KernelIdeal.Frame
import proofs.«109587_j20572893348711_1_alg».proof.Proof.KernelDots
import Idealize.ShloMosaic.Lib.Pipeline.Value

set_option maxRecDepth 16384

noncomputable section

namespace Cert.KernelIdeal.Band2

open Idealize.ShloMosaic Idealize.ShloMosaic.TcCoe Idealize.SL.Sem Idealize.ShloMosaic.ValueIdx
open Cert.KernelIdeal Cert.KernelIdeal.Gen Cert.Perceptron

variable (V : (c : Dev nD) → (b : Ref sig .tc) → Buf (Elt Ideal) ((c : Thread nD τ).loc b))

theorem hz : (![0, 0] : Fin 2 → Nat) = fun _ => 0 := funext fun a => by fin_cases a <;> rfl

/-- The body's value is the perceptron of the blocks it loads. -/
theorem pay_eq (x0 : Vec Ideal S512x128 .f32) (x1 : Vec Ideal S128x128 .f32) (x2 : Vec Ideal S1x128 .f32)
    (x3 : Vec Ideal S128x1 .f32) (x4 : Vec Ideal S1x1 .f32) :
    k2_pay1 x0 x1 x2 x3 x4 = layer x0 x1 (rowOf x2) x3 (rowOf x4) :=
  kernel_form _ Dots.pooled _ Dots.pooledOut _ _ _ _ _ _ x0 x1 x2 x3 x4

/-- What the region leaves in its result array: the perceptron of the arrays it found. -/
def G (c : Dev nD) : S512x1.Idx → Elt Ideal .f32 :=
  layer (V c main_v42 : S512x128.Idx → Elt Ideal .f32) (V c main_arg12 : S128x128.Idx → Elt Ideal .f32)
    (rowOf (V c main_v43 : S1x128.Idx → Elt Ideal .f32)) (V c main_arg14 : S128x1.Idx → Elt Ideal .f32)
    (rowOf (V c main_v44 : S1x1.Idx → Elt Ideal .f32))

/-- The index maps at the one point: every window is at block (0, 0). -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Each input's block at the point is its whole array. -/
theorem blk0 (c : Dev nD) (t : Fin cfg2.N) : iblk2 V c 0 t = (V c main_v42 : S512x128.Idx → Elt Ideal .f32) := by
  obtain ⟨e0, e1, -⟩ := idx_facts t
  funext z
  show V c main_v42 (((cfg2.win 0).blk t).view.emb z) = V c main_v42 z
  refine congrArg _ (funext fun a => Fin.ext ?_)
  match a with
  | ⟨0, _⟩ => show win2_0.index t (0 : Fin 2) * 512 + 1 * (z 0).val = (z 0).val; omega
  | ⟨1, _⟩ => show win2_0.index t (1 : Fin 2) * 128 + 1 * (z 1).val = (z 1).val; omega

theorem blk1 (c : Dev nD) (t : Fin cfg2.N) : iblk2 V c 1 t = (V c main_arg12 : S128x128.Idx → Elt Ideal .f32) := by
  obtain ⟨-, -, e0, e1, -⟩ := idx_facts t
  funext z
  show V c main_arg12 (((cfg2.win 1).blk t).view.emb z) = V c main_arg12 z
  refine congrArg _ (funext fun a => Fin.ext ?_)
  match a with
  | ⟨0, _⟩ => show win2_1.index t (0 : Fin 2) * 128 + 1 * (z 0).val = (z 0).val; omega
  | ⟨1, _⟩ => show win2_1.index t (1 : Fin 2) * 128 + 1 * (z 1).val = (z 1).val; omega

theorem blk2 (c : Dev nD) (t : Fin cfg2.N) : iblk2 V c 2 t = (V c main_v43 : S1x128.Idx → Elt Ideal .f32) := by
  obtain ⟨-, -, -, -, e0, e1, -⟩ := idx_facts t
  funext z
  show V c main_v43 (((cfg2.win 2).blk t).view.emb z) = V c main_v43 z
  refine congrArg _ (funext fun a => Fin.ext ?_)
  match a with
  | ⟨0, _⟩ => show win2_2.index t (0 : Fin 2) * 1 + 1 * (z 0).val = (z 0).val; omega
  | ⟨1, _⟩ => show win2_2.index t (1 : Fin 2) * 128 + 1 * (z 1).val = (z 1).val; omega

theorem blk3 (c : Dev nD) (t : Fin cfg2.N) : iblk2 V c 3 t = (V c main_arg14 : S128x1.Idx → Elt Ideal .f32) := by
  obtain ⟨-, -, -, -, -, -, e0, e1, -⟩ := idx_facts t
  funext z
  show V c main_arg14 (((cfg2.win 3).blk t).view.emb z) = V c main_arg14 z
  refine congrArg _ (funext fun a => Fin.ext ?_)
  match a with
  | ⟨0, _⟩ => show win2_3.index t (0 : Fin 2) * 128 + 1 * (z 0).val = (z 0).val; omega
  | ⟨1, _⟩ => show win2_3.index t (1 : Fin 2) * 1 + 1 * (z 1).val = (z 1).val; omega

theorem blk4 (c : Dev nD) (t : Fin cfg2.N) : iblk2 V c 4 t = (V c main_v44 : S1x1.Idx → Elt Ideal .f32) := by
  obtain ⟨-, -, -, -, -, -, -, -, e0, e1, -⟩ := idx_facts t
  funext z
  show V c main_v44 (((cfg2.win 4).blk t).view.emb z) = V c main_v44 z
  refine congrArg _ (funext fun a => Fin.ext ?_)
  match a with
  | ⟨0, _⟩ => show win2_4.index t (0 : Fin 2) * 1 + 1 * (z 0).val = (z 0).val; omega
  | ⟨1, _⟩ => show win2_4.index t (1 : Fin 2) * 1 + 1 * (z 1).val = (z 1).val; omega

/-- An entry of the result's block is the same entry of the result array. -/
theorem emb5 (t : Fin cfg2.N) (y : S512x1.Idx) : ((cfg2.win 5).blk t).view.emb y = y := by
  obtain ⟨-, -, -, -, -, -, -, -, -, -, e0, e1⟩ := idx_facts t
  refine funext fun a => Fin.ext ?_
  match a with
  | ⟨0, _⟩ => show win2_5.index t (0 : Fin 2) * 512 + 1 * (y 0).val = (y 0).val; omega
  | ⟨1, _⟩ => show win2_5.index t (1 : Fin 2) * 1 + 1 * (y 1).val = (y 1).val; omega

/-- What the point writes back is the perceptron of the arrays the region found. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S512x128) hz, View.ld_unit_zero (S := S128x128) hz, View.ld_unit_zero (S := S1x128) hz,
    View.ld_unit_zero (S := S128x1) hz, View.ld_unit_zero (S := S1x1) hz]
  rw [pay_eq, blk0, blk1, blk2, blk3, blk4]
  funext y
  show _ = G V c (((cfg2.win 5).blk t).view.emb y)
  rw [emb5]
  rfl

/-- An index of the result array is in the point's block iff each coordinate is in the block's range on its axis. -/
theorem mem_blk (t : Fin cfg2.N) (i : S512x1.Idx) :
    i ∈ ((cfg2.win 5).blk t).view.set ↔ ∀ a : Fin 2, win2_5.index t a * S512x1.size a ≤ (i a).val ∧ (i a).val < win2_5.index t a * S512x1.size a + S512x1.size a := by
  show i ∈ ((View.whole main_v45).slice (win2_5.rect t)).set ↔ _
  rw [View.set_slice_whole, Rect.mem_set_unit]
  exact Iff.rfl

/-- The one block is the whole result. -/
theorem cover (i : S512x1.Idx) : ∃ t : Fin cfg2.N, (cfg2.win 5).flush t = true ∧ i ∈ ((cfg2.win 5).blk t).view.set := by
  have hi0 : (i 0).val < 512 := (i 0).isLt
  have hi1 : (i 1).val < 1 := (i 1).isLt
  obtain ⟨-, -, -, -, -, -, -, -, -, -, e5, e6⟩ := idx_facts t2_0
  refine ⟨t2_0, flush2_5 _, ?_⟩
  rw [mem_blk]
  intro a
  match a with
  | ⟨0, _⟩ =>
    show win2_5.index t2_0 (0 : Fin 2) * 512 ≤ (i 0).val ∧ (i 0).val < win2_5.index t2_0 (0 : Fin 2) * 512 + 512
    rw [e5]; omega
  | ⟨1, _⟩ =>
    show win2_5.index t2_0 (1 : Fin 2) * 1 ≤ (i 1).val ∧ (i 1).val < win2_5.index t2_0 (1 : Fin 2) * 1 + 1
    rw [e6]; omega

/-- The result array after the region. -/
theorem final (c : Dev nD) : (dat2 V c).arrAt 5 cfg2.N = G V c :=
  (dat2 V c).arrAt_eq_of_cover 5 (G V c) (fun t _ => flushed_eq V c t) (cover)

end Cert.KernelIdeal.Band2

end
-- ==== Proof.KernelValue.lean ====
/-
  The kernel program's result as one function of its arguments. The buffer contents at each segment boundary are a
  fold from the launch memory; read at the buffers that matter: before region 0 its operand is the neighbour
  aggregation of the node features and its biases are the bias vectors laid out as rows; region 0 leaves the
  perceptron of those in its result; before region 1 the operand is the aggregation of that result (over the same
  edges), and region 1 leaves the second perceptron; before region 2 the operand is the mean pooling of that, and
  region 2 leaves the last perceptron — the program's result. A bias vector laid out as a row and read back along
  the row is the vector.
-/
import proofs.«109587_j20572893348711_1_alg».proof.Proof.Gen.KernelIdeal.Frame
import proofs.«109587_j20572893348711_1_alg».proof.Proof.KStages
import proofs.«109587_j20572893348711_1_alg».proof.Proof.Band0
import proofs.«109587_j20572893348711_1_alg».proof.Proof.Band1
import proofs.«109587_j20572893348711_1_alg».proof.Proof.Band2
import Idealize.ShloMosaic.Lib.StableHlo.Run
import Idealize.ShloMosaic.Lib.ValueLayout

set_option maxRecDepth 16384

noncomputable section

namespace Cert.KernelIdeal.Chain

open Idealize.ShloMosaic Idealize.ShloMosaic.TcCoe Idealize.SL.Sem Idealize.ShloMosaic.StableHlo Idealize.ShloMosaic.ValueIdx
open Cert.KernelIdeal Cert.KernelIdeal.Gen Cert.KernelIdeal.Stages Cert.Perceptron

/-- A vector laid out as one row, read back along the row. -/
theorem rowOf_row128 (b : (⟨S128, .f32⟩ : BufTy).Contents (Elt Ideal)) : rowOf (row128 b) = b := by
  funext i
  obtain ⟨k, rfl⟩ : ∃ k : Fin 128, i = ix1 k := ⟨i 0, eq_ix1 i⟩
  exact shapeCast_a_1a_apply b shapeCasts_S128_S1x128 0 k

theorem rowOf_row1 (b : (⟨S1, .f32⟩ : BufTy).Contents (Elt Ideal)) : rowOf (row1 b) = b := by
  funext i
  obtain ⟨k, rfl⟩ : ∃ k : Fin 1, i = ix1 k := ⟨i 0, eq_ix1 i⟩
  exact shapeCast_a_1a_apply b shapeCasts_S1_S1x1 0 k

/-- The program's result as a function of its arguments: two rounds of aggregation and perceptron on the nodes, the
    mean pooling over graphs, the perceptron on the pooled rows. -/
def spec (x : (⟨S50000x128, .f32⟩ : BufTy).Contents (Elt Ideal)) (e : (⟨S2x600000, .i32⟩ : BufTy).Contents (Elt Ideal))
    (g : (⟨S50000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (w3 : (⟨S128x128, .f32⟩ : BufTy).Contents (Elt Ideal)) (b3 : (⟨S128, .f32⟩ : BufTy).Contents (Elt Ideal))
    (w4 : (⟨S128x128, .f32⟩ : BufTy).Contents (Elt Ideal)) (b4 : (⟨S128, .f32⟩ : BufTy).Contents (Elt Ideal))
    (w5 : (⟨S128x128, .f32⟩ : BufTy).Contents (Elt Ideal)) (b5 : (⟨S128, .f32⟩ : BufTy).Contents (Elt Ideal))
    (w6 : (⟨S128x1, .f32⟩ : BufTy).Contents (Elt Ideal)) (b6 : (⟨S1, .f32⟩ : BufTy).Contents (Elt Ideal)) :
    (⟨S512x1, .f32⟩ : BufTy).Contents (Elt Ideal) :=
  layer (pool (layer (agg (layer (agg x (src e) (dst e)) w1 b1 w2 b2) (src e) (dst e)) w3 b3 w4 b4) g) w5 b5 w6 b6

variable (m : (ℓ : Loc nD τ sig) → Buf (Elt Ideal) ℓ) (ρ : Dev nD → PrngReg) (c : Dev nD)

/-! ## Before region 0 -/

set_option maxHeartbeats 4000000 in
theorem e1_v14 : V1 m ρ c main_v14 = agg (m ((c : Thread nD τ).loc main_arg0)) (src (m ((c : Thread nD τ).loc main_arg1))) (dst (m ((c : Thread nD τ).loc main_arg1))) := by
  show StableHlo.after hostOps0 (W0 m ρ c) (Proc.devRef .tc main_v14) = _
  after_results_simp
  rfl
set_option maxHeartbeats 4000000 in
theorem e1_v1 : W1 m ρ c (Proc.devRef .tc main_v1) = src (m ((c : Thread nD τ).loc main_arg1)) := by
  show StableHlo.after hostOps0 (W0 m ρ c) (Proc.devRef .tc main_v1) = _
  after_results_simp
  rfl
set_option maxHeartbeats 4000000 in
theorem e1_v3 : W1 m ρ c (Proc.devRef .tc main_v3) = dst (m ((c : Thread nD τ).loc main_arg1)) := by
  show StableHlo.after hostOps0 (W0 m ρ c) (Proc.devRef .tc main_v3) = _
  after_results_simp
  rfl
set_option maxHeartbeats 4000000 in
theorem e1_v15 : V1 m ρ c main_v15 = row128 (m ((c : Thread nD τ).loc main_arg5)) := by
  show StableHlo.after hostOps0 (W0 m ρ c) (Proc.devRef .tc main_v15) = _
  after_results_simp
  rfl
set_option maxHeartbeats 4000000 in
theorem e1_v16 : V1 m ρ c main_v16 = row128 (m ((c : Thread nD τ).loc main_arg7)) := by
  show StableHlo.after hostOps0 (W0 m ρ c) (Proc.devRef .tc main_v16) = _
  after_results_simp
  rfl
set_option maxHeartbeats 4000000 in
theorem e1_a3 : W1 m ρ c (Proc.devRef .tc main_arg3) = (m ((c : Thread nD τ).loc main_arg3)) := by
  show StableHlo.after hostOps0 (W0 m ρ c) (Proc.devRef .tc main_arg3) = _
  after_results_simp
  try rfl
set_option maxHeartbeats 4000000 in
theorem e1_a4 : W1 m ρ c (Proc.devRef .tc main_arg4) = (m ((c : Thread nD τ).loc main_arg4)) := by
  show StableHlo.after hostOps0 (W0 m ρ c) (Proc.devRef .tc main_arg4) = _
  after_results_simp
  try rfl
set_option maxHeartbeats 4000000 in
theorem e1_a6 : W1 m ρ c (Proc.devRef .tc main_arg6) = (m ((c : Thread nD τ).loc main_arg6)) := by
  show StableHlo.after hostOps0 (W0 m ρ c) (Proc.devRef .tc main_arg6) = _
  after_results_simp
  try rfl
set_option maxHeartbeats 4000000 in
theorem e1_a8 : W1 m ρ c (Proc.devRef .tc main_arg8) = (m ((c : Thread nD τ).loc main_arg8)) := by
  show StableHlo.after hostOps0 (W0 m ρ c) (Proc.devRef .tc main_arg8) = _
  after_results_simp
  try rfl
set_option maxHeartbeats 4000000 in
theorem e1_a9 : W1 m ρ c (Proc.devRef .tc main_arg9) = (m ((c : Thread nD τ).loc main_arg9)) := by
  show StableHlo.after hostOps0 (W0 m ρ c) (Proc.devRef .tc main_arg9) = _
  after_results_simp
  try rfl
set_option maxHeartbeats 4000000 in
theorem e1_a10 : W1 m ρ c (Proc.devRef .tc main_arg10) = (m ((c : Thread nD τ).loc main_arg10)) := by
  show StableHlo.after hostOps0 (W0 m ρ c) (Proc.devRef .tc main_arg10) = _
  after_results_simp
  try rfl
set_option maxHeartbeats 4000000 in
theorem e1_a11 : W1 m ρ c (Proc.devRef .tc main_arg11) = (m ((c : Thread nD τ).loc main_arg11)) := by
  show StableHlo.after hostOps0 (W0 m ρ c) (Proc.devRef .tc main_arg11) = _
  after_results_simp
  try rfl
set_option maxHeartbeats 4000000 in
theorem e1_a12 : W1 m ρ c (Proc.devRef .tc main_arg12) = (m ((c : Thread nD τ).loc main_arg12)) := by
  show StableHlo.after hostOps0 (W0 m ρ c) (Proc.devRef .tc main_arg12) = _
  after_results_simp
  try rfl
set_option maxHeartbeats 4000000 in
theorem e1_a13 : W1 m ρ c (Proc.devRef .tc main_arg13) = (m ((c : Thread nD τ).loc main_arg13)) := by
  show StableHlo.after hostOps0 (W0 m ρ c) (Proc.devRef .tc main_arg13) = _
  after_results_simp
  try rfl
set_option maxHeartbeats 4000000 in
theorem e1_a14 : W1 m ρ c (Proc.devRef .tc main_arg14) = (m ((c : Thread nD τ).loc main_arg14)) := by
  show StableHlo.after hostOps0 (W0 m ρ c) (Proc.devRef .tc main_arg14) = _
  after_results_simp
  try rfl
set_option maxHeartbeats 4000000 in
theorem e1_a15 : W1 m ρ c (Proc.devRef .tc main_arg15) = (m ((c : Thread nD τ).loc main_arg15)) := by
  show StableHlo.after hostOps0 (W0 m ρ c) (Proc.devRef .tc main_arg15) = _
  after_results_simp
  try rfl

/-! ## After region 0 -/

theorem e2_v17 : W2 m ρ c (Proc.devRef .tc main_v17) = Band0.G (V1 m ρ) c :=
  (W2_arr m ρ c 5).trans (Band0.final (V1 m ρ) c)
theorem e2_v1 : W2 m ρ c (Proc.devRef .tc main_v1) = src (m ((c : Thread nD τ).loc main_arg1)) := (W2_of_ne m ρ c main_v1 (by decide)).trans (e1_v1 m ρ c)
theorem e2_v3 : W2 m ρ c (Proc.devRef .tc main_v3) = dst (m ((c : Thread nD τ).loc main_arg1)) := (W2_of_ne m ρ c main_v3 (by decide)).trans (e1_v3 m ρ c)
theorem e2_a3 : W2 m ρ c (Proc.devRef .tc main_arg3) = (m ((c : Thread nD τ).loc main_arg3)) := (W2_of_ne m ρ c main_arg3 (by decide)).trans (e1_a3 m ρ c)
theorem e2_a8 : W2 m ρ c (Proc.devRef .tc main_arg8) = (m ((c : Thread nD τ).loc main_arg8)) := (W2_of_ne m ρ c main_arg8 (by decide)).trans (e1_a8 m ρ c)
theorem e2_a9 : W2 m ρ c (Proc.devRef .tc main_arg9) = (m ((c : Thread nD τ).loc main_arg9)) := (W2_of_ne m ρ c main_arg9 (by decide)).trans (e1_a9 m ρ c)
theorem e2_a10 : W2 m ρ c (Proc.devRef .tc main_arg10) = (m ((c : Thread nD τ).loc main_arg10)) := (W2_of_ne m ρ c main_arg10 (by decide)).trans (e1_a10 m ρ c)
theorem e2_a11 : W2 m ρ c (Proc.devRef .tc main_arg11) = (m ((c : Thread nD τ).loc main_arg11)) := (W2_of_ne m ρ c main_arg11 (by decide)).trans (e1_a11 m ρ c)
theorem e2_a12 : W2 m ρ c (Proc.devRef .tc main_arg12) = (m ((c : Thread nD τ).loc main_arg12)) := (W2_of_ne m ρ c main_arg12 (by decide)).trans (e1_a12 m ρ c)
theorem e2_a13 : W2 m ρ c (Proc.devRef .tc main_arg13) = (m ((c : Thread nD τ).loc main_arg13)) := (W2_of_ne m ρ c main_arg13 (by decide)).trans (e1_a13 m ρ c)
theorem e2_a14 : W2 m ρ c (Proc.devRef .tc main_arg14) = (m ((c : Thread nD τ).loc main_arg14)) := (W2_of_ne m ρ c main_arg14 (by decide)).trans (e1_a14 m ρ c)
theorem e2_a15 : W2 m ρ c (Proc.devRef .tc main_arg15) = (m ((c : Thread nD τ).loc main_arg15)) := (W2_of_ne m ρ c main_arg15 (by decide)).trans (e1_a15 m ρ c)

/-- Region 0's result: the first perceptron, of the aggregated node features. -/
theorem h1_eq : W2 m ρ c (Proc.devRef .tc main_v17)
    = layer (agg (m ((c : Thread nD τ).loc main_arg0)) (src (m ((c : Thread nD τ).loc main_arg1))) (dst (m ((c : Thread nD τ).loc main_arg1)))) (m ((c : Thread nD τ).loc main_arg4)) (m ((c : Thread nD τ).loc main_arg5)) (m ((c : Thread nD τ).loc main_arg6)) (m ((c : Thread nD τ).loc main_arg7)) := by
  rw [e2_v17]
  unfold Band0.G
  rw [e1_v14, e1_v15, e1_v16, rowOf_row128, rowOf_row128]
  rw [show V1 m ρ c main_arg4 = (m ((c : Thread nD τ).loc main_arg4)) from e1_a4 m ρ c, show V1 m ρ c main_arg6 = (m ((c : Thread nD τ).loc main_arg6)) from e1_a6 m ρ c]

/-! ## Before region 1 -/

set_option maxHeartbeats 4000000 in
theorem e3_v28 : V3 m ρ c main_v28 = agg (W2 m ρ c (Proc.devRef .tc main_v17)) (W2 m ρ c (Proc.devRef .tc main_v1)) (W2 m ρ c (Proc.devRef .tc main_v3)) := by
  show StableHlo.after hostOps1 (W2 m ρ c) (Proc.devRef .tc main_v28) = _
  after_results_simp
  rfl
set_option maxHeartbeats 4000000 in
theorem e3_v29 : V3 m ρ c main_v29 = row128 (W2 m ρ c (Proc.devRef .tc main_arg9)) := by
  show StableHlo.after hostOps1 (W2 m ρ c) (Proc.devRef .tc main_v29) = _
  after_results_simp
  rfl
set_option maxHeartbeats 4000000 in
theorem e3_v30 : V3 m ρ c main_v30 = row128 (W2 m ρ c (Proc.devRef .tc main_arg11)) := by
  show StableHlo.after hostOps1 (W2 m ρ c) (Proc.devRef .tc main_v30) = _
  after_results_simp
  rfl
set_option maxHeartbeats 4000000 in
theorem e3_a3 : W3 m ρ c (Proc.devRef .tc main_arg3) = W2 m ρ c (Proc.devRef .tc main_arg3) := by
  show StableHlo.after hostOps1 (W2 m ρ c) (Proc.devRef .tc main_arg3) = _
  after_results_simp
  try rfl
set_option maxHeartbeats 4000000 in
theorem e3_a8 : W3 m ρ c (Proc.devRef .tc main_arg8) = W2 m ρ c (Proc.devRef .tc main_arg8) := by
  show StableHlo.after hostOps1 (W2 m ρ c) (Proc.devRef .tc main_arg8) = _
  after_results_simp
  try rfl
set_option maxHeartbeats 4000000 in
theorem e3_a10 : W3 m ρ c (Proc.devRef .tc main_arg10) = W2 m ρ c (Proc.devRef .tc main_arg10) := by
  show StableHlo.after hostOps1 (W2 m ρ c) (Proc.devRef .tc main_arg10) = _
  after_results_simp
  try rfl
set_option maxHeartbeats 4000000 in
theorem e3_a12 : W3 m ρ c (Proc.devRef .tc main_arg12) = W2 m ρ c (Proc.devRef .tc main_arg12) := by
  show StableHlo.after hostOps1 (W2 m ρ c) (Proc.devRef .tc main_arg12) = _
  after_results_simp
  try rfl
set_option maxHeartbeats 4000000 in
theorem e3_a13 : W3 m ρ c (Proc.devRef .tc main_arg13) = W2 m ρ c (Proc.devRef .tc main_arg13) := by
  show StableHlo.after hostOps1 (W2 m ρ c) (Proc.devRef .tc main_arg13) = _
  after_results_simp
  try rfl
set_option maxHeartbeats 4000000 in
theorem e3_a14 : W3 m ρ c (Proc.devRef .tc main_arg14) = W2 m ρ c (Proc.devRef .tc main_arg14) := by
  show StableHlo.after hostOps1 (W2 m ρ c) (Proc.devRef .tc main_arg14) = _
  after_results_simp
  try rfl
set_option maxHeartbeats 4000000 in
theorem e3_a15 : W3 m ρ c (Proc.devRef .tc main_arg15) = W2 m ρ c (Proc.devRef .tc main_arg15) := by
  show StableHlo.after hostOps1 (W2 m ρ c) (Proc.devRef .tc main_arg15) = _
  after_results_simp
  try rfl

/-! ## After region 1 -/

theorem e4_v31 : W4 m ρ c (Proc.devRef .tc main_v31) = Band1.G (V3 m ρ) c :=
  (W4_arr m ρ c 5).trans (Band1.final (V3 m ρ) c)
theorem e4_a3 : W4 m ρ c (Proc.devRef .tc main_arg3) = (m ((c : Thread nD τ).loc main_arg3)) :=
  (W4_of_ne m ρ c main_arg3 (by decide)).trans ((e3_a3 m ρ c).trans (e2_a3 m ρ c))
theorem e4_a12 : W4 m ρ c (Proc.devRef .tc main_arg12) = (m ((c : Thread nD τ).loc main_arg12)) :=
  (W4_of_ne m ρ c main_arg12 (by decide)).trans ((e3_a12 m ρ c).trans (e2_a12 m ρ c))
theorem e4_a13 : W4 m ρ c (Proc.devRef .tc main_arg13) = (m ((c : Thread nD τ).loc main_arg13)) :=
  (W4_of_ne m ρ c main_arg13 (by decide)).trans ((e3_a13 m ρ c).trans (e2_a13 m ρ c))
theorem e4_a14 : W4 m ρ c (Proc.devRef .tc main_arg14) = (m ((c : Thread nD τ).loc main_arg14)) :=
  (W4_of_ne m ρ c main_arg14 (by decide)).trans ((e3_a14 m ρ c).trans (e2_a14 m ρ c))
theorem e4_a15 : W4 m ρ c (Proc.devRef .tc main_arg15) = (m ((c : Thread nD τ).loc main_arg15)) :=
  (W4_of_ne m ρ c main_arg15 (by decide)).trans ((e3_a15 m ρ c).trans (e2_a15 m ρ c))

/-- Region 1's result: the second perceptron, of the aggregated first one. -/
theorem h2_eq : W4 m ρ c (Proc.devRef .tc main_v31)
    = layer (agg (layer (agg (m ((c : Thread nD τ).loc main_arg0)) (src (m ((c : Thread nD τ).loc main_arg1))) (dst (m ((c : Thread nD τ).loc main_arg1)))) (m ((c : Thread nD τ).loc main_arg4)) (m ((c : Thread nD τ).loc main_arg5)) (m ((c : Thread nD τ).loc main_arg6)) (m ((c : Thread nD τ).loc main_arg7))) (src (m ((c : Thread nD τ).loc main_arg1))) (dst (m ((c : Thread nD τ).loc main_arg1))))
        (m ((c : Thread nD τ).loc main_arg8)) (m ((c : Thread nD τ).loc main_arg9)) (m ((c : Thread nD τ).loc main_arg10)) (m ((c : Thread nD τ).loc main_arg11)) := by
  rw [e4_v31]
  unfold Band1.G
  rw [e3_v28, e3_v29, e3_v30, rowOf_row128, rowOf_row128, h1_eq, e2_v1, e2_v3, e2_a9, e2_a11]
  rw [show V3 m ρ c main_arg8 = (m ((c : Thread nD τ).loc main_arg8)) from (e3_a8 m ρ c).trans (e2_a8 m ρ c),
    show V3 m ρ c main_arg10 = (m ((c : Thread nD τ).loc main_arg10)) from (e3_a10 m ρ c).trans (e2_a10 m ρ c)]

/-! ## Before region 2 -/

set_option maxHeartbeats 4000000 in
theorem e5_v42 : V5 m ρ c main_v42 = pool (W4 m ρ c (Proc.devRef .tc main_v31)) (W4 m ρ c (Proc.devRef .tc main_arg3)) := by
  show StableHlo.after hostOps2 (W4 m ρ c) (Proc.devRef .tc main_v42) = _
  after_results_simp
  rfl
set_option maxHeartbeats 4000000 in
theorem e5_v43 : V5 m ρ c main_v43 = row128 (W4 m ρ c (Proc.devRef .tc main_arg13)) := by
  show StableHlo.after hostOps2 (W4 m ρ c) (Proc.devRef .tc main_v43) = _
  after_results_simp
  rfl
set_option maxHeartbeats 4000000 in
theorem e5_v44 : V5 m ρ c main_v44 = row1 (W4 m ρ c (Proc.devRef .tc main_arg15)) := by
  show StableHlo.after hostOps2 (W4 m ρ c) (Proc.devRef .tc main_v44) = _
  after_results_simp
  rfl
set_option maxHeartbeats 4000000 in
theorem e5_a12 : V5 m ρ c main_arg12 = W4 m ρ c (Proc.devRef .tc main_arg12) := by
  show StableHlo.after hostOps2 (W4 m ρ c) (Proc.devRef .tc main_arg12) = _
  after_results_simp
  try rfl
set_option maxHeartbeats 4000000 in
theorem e5_a14 : V5 m ρ c main_arg14 = W4 m ρ c (Proc.devRef .tc main_arg14) := by
  show StableHlo.after hostOps2 (W4 m ρ c) (Proc.devRef .tc main_arg14) = _
  after_results_simp
  try rfl

/-! ## After region 2: the result -/

/-- The program's result buffer at the last boundary is `spec` of the arguments. -/
theorem value : W6 m ρ c (Proc.devRef .tc main_v45)
    = spec (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [show W6 m ρ c (Proc.devRef .tc main_v45) = Band2.G (V5 m ρ) c from (W6_arr m ρ c 5).trans (Band2.final (V5 m ρ) c)]
  unfold Band2.G spec
  rw [e5_v42, e5_v43, e5_v44, e5_a12, e5_a14, rowOf_row128, rowOf_row1, h2_eq, e4_a3, e4_a12, e4_a13, e4_a14, e4_a15]

end Cert.KernelIdeal.Chain

end
-- ==== Proof.RefDots.lean ====
/-
  The reference program's three host products are plain products: each contracts the left operand's column axis
  (extent 128) with the right operand's row axis and keeps the other two axes in order.
-/
import proofs.«109587_j20572893348711_1_alg».proof.Proof.Gen.ReferenceIdeal
import proofs.«109587_j20572893348711_1_alg».proof.Proof.LibPerceptron

noncomputable section

namespace Cert.ReferenceIdeal.Dots

open Idealize.ShloMosaic Cert.ReferenceIdeal Cert.ReferenceIdeal.Gen Cert.Perceptron

/-- `dot_S50000x128_S128x128_S50000x128_1_0_0_1_n_n` pairs the left operand's columns with the right operand's rows. -/
theorem nodes : PlainDot dot_S50000x128_S128x128_S50000x128_1_0_0_1_n_n where
  hr := rfl
  hs := rfl
  hl0 := fun j q => by
    unfold DotDims.lhsIdx
    rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
    rfl
  hl1 := fun j q => dot_S50000x128_S128x128_S50000x128_1_0_0_1_n_n.lhsIdx_val_of_single rfl j q
  hr0 := fun j q => dot_S50000x128_S128x128_S50000x128_1_0_0_1_n_n.rhsIdx_val_of_single rfl j q
  hr1 := fun j q => by
    unfold DotDims.rhsIdx
    rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
    rfl

/-- `dot_S512x128_S128x128_S512x128_1_0_0_1_n_n` pairs the left operand's columns with the right operand's rows. -/
theorem pooled : PlainDot dot_S512x128_S128x128_S512x128_1_0_0_1_n_n where
  hr := rfl
  hs := rfl
  hl0 := fun j q => by
    unfold DotDims.lhsIdx
    rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
    rfl
  hl1 := fun j q => dot_S512x128_S128x128_S512x128_1_0_0_1_n_n.lhsIdx_val_of_single rfl j q
  hr0 := fun j q => dot_S512x128_S128x128_S512x128_1_0_0_1_n_n.rhsIdx_val_of_single rfl j q
  hr1 := fun j q => by
    unfold DotDims.rhsIdx
    rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
    rfl

/-- `dot_S512x128_S128x1_S512x1_1_0_0_1_n_n` pairs the left operand's columns with the right operand's rows. -/
theorem pooledOut : PlainDot dot_S512x128_S128x1_S512x1_1_0_0_1_n_n where
  hr := rfl
  hs := rfl
  hl0 := fun j q => by
    unfold DotDims.lhsIdx
    rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
    rfl
  hl1 := fun j q => dot_S512x128_S128x1_S512x1_1_0_0_1_n_n.lhsIdx_val_of_single rfl j q
  hr0 := fun j q => dot_S512x128_S128x1_S512x1_1_0_0_1_n_n.rhsIdx_val_of_single rfl j q
  hr1 := fun j q => by
    unfold DotDims.rhsIdx
    rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
    rfl

end Cert.ReferenceIdeal.Dots

end
-- ==== Proof.RStages.lean ====
/-
  The reference program's stretches as functions: the source and destination node of each edge, the neighbour
  aggregation with the self term, the mean pooling over graphs, and its spelling of the perceptron on all the
  nodes' rows and on the pooled rows (two host products, the biases laid out as a row and broadcast, the cut-off at
  zero). The reference's result is their composition, and each perceptron spelling is the perceptron.
-/
import proofs.«109587_j20572893348711_1_alg».proof.Proof.Gen.ReferenceIdeal.Run
import proofs.«109587_j20572893348711_1_alg».proof.Proof.RefDots

set_option maxRecDepth 16384

noncomputable section

namespace Cert.ReferenceIdeal.Stages

open Idealize.ShloMosaic Idealize.ShloMosaic.TcCoe Idealize.SL.Sem Cert.ReferenceIdeal Cert.ReferenceIdeal.Gen Cert.Perceptron

variable {F : FTy → Type} [FloatOps F]

/-- The source node of each edge: row 0 of the edge list. -/
def src (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000

/-- The destination node of each edge: row 1 of the edge list. -/
def dst (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

/-- Neighbour aggregation with the self term: `h`'s rows gathered at the edges' sources (a negative index counted
    from the end), scatter-added at the edges' destinations onto zeros, plus `h`. -/
def agg (h : (⟨S50000x128, .f32⟩ : BufTy).Contents (Elt F)) (s d : (⟨S600000, .i32⟩ : BufTy).Contents (Elt F)) :
    (⟨S50000x128, .f32⟩ : BufTy).Contents (Elt F) :=
  addf (Host.scatterAdd scatter_S50000x128_S600000x1_S600000x128_1_0_0_1
      (broadcastInDim S50000x128 ![] bcast_S_S50000x128 (constant S_ .f32 0x00000000#32))
      (broadcastInDim S600000x1 ![0] bcast_S600000_S600000x1_0 d)
      (Host.gather gather_S50000x128_S600000x1_S600000x128_1_0_n_n_0_1_1128 h
        (broadcastInDim S600000x1 ![0] bcast_S600000_S600000x1_0
          (select (cmpi .slt s (broadcastInDim S600000 ![] bcast_S_S600000 (constantI S_ 32 0#32)))
            (addi s (broadcastInDim S600000 ![] bcast_S_S600000 (constantI S_ 32 50000#32))) s)))) h

/-- Mean pooling over graphs: the rows of `h` scatter-added by graph number, divided by the larger of the graph's
    node count (ones scatter-added by graph number) and one. -/
def pool (h : (⟨S50000x128, .f32⟩ : BufTy).Contents (Elt F)) (g : (⟨S50000, .i32⟩ : BufTy).Contents (Elt F)) :
    (⟨S512x128, .f32⟩ : BufTy).Contents (Elt F) :=
  Host.divf (Host.scatterAdd scatter_S512x128_S50000x1_S50000x128_1_0_0_1
      (broadcastInDim S512x128 ![] bcast_S_S512x128 (constant S_ .f32 0x00000000#32))
      (broadcastInDim S50000x1 ![0] bcast_S50000_S50000x1_0 g) h)
    (broadcastInDim S512x128 ![0, 1] bcast_S512x1_S512x128_0_1
      (maximumf (Host.scatterAdd scatter_S512x1_S50000x1_S50000x1_1_0_0_1
          (broadcastInDim S512x1 ![] bcast_S_S512x1 (constant S_ .f32 0x00000000#32))
          (broadcastInDim S50000x1 ![0] bcast_S50000_S50000x1_0 g)
          (broadcastInDim S50000x1 ![] bcast_S_S50000x1 (constant S_ .f32 0x3F800000#32)))
        (broadcastInDim S512x1 ![] bcast_S_S512x1 (constant S_ .f32 0x3F800000#32))))

/-- The perceptron on all the nodes' rows, as the host spells it. -/
def mlp (X : (⟨S50000x128, .f32⟩ : BufTy).Contents (Elt F)) (W1 : (⟨S128x128, .f32⟩ : BufTy).Contents (Elt F))
    (b1 : (⟨S128, .f32⟩ : BufTy).Contents (Elt F)) (W2 : (⟨S128x128, .f32⟩ : BufTy).Contents (Elt F))
    (b2 : (⟨S128, .f32⟩ : BufTy).Contents (Elt F)) : (⟨S50000x128, .f32⟩ : BufTy).Contents (Elt F) :=
  addf (Host.dotGeneral dot_S50000x128_S128x128_S50000x128_1_0_0_1_n_n none
      (maximumf (addf (Host.dotGeneral dot_S50000x128_S128x128_S50000x128_1_0_0_1_n_n none X W1)
          (broadcastInDim S50000x128 ![0, 1] bcast_S1x128_S50000x128_0_1 (broadcastInDim S1x128 ![1] bcast_S128_S1x128_1 b1)))
        (broadcastInDim S50000x128 ![] bcast_S_S50000x128 (constant S_ .f32 0x00000000#32))) W2)
    (broadcastInDim S50000x128 ![0, 1] bcast_S1x128_S50000x128_0_1 (broadcastInDim S1x128 ![1] bcast_S128_S1x128_1 b2))

/-- The perceptron on the pooled rows, as the host spells it. -/
def mlpOut (X : (⟨S512x128, .f32⟩ : BufTy).Contents (Elt F)) (W1 : (⟨S128x128, .f32⟩ : BufTy).Contents (Elt F))
    (b1 : (⟨S128, .f32⟩ : BufTy).Contents (Elt F)) (W2 : (⟨S128x1, .f32⟩ : BufTy).Contents (Elt F))
    (b2 : (⟨S1, .f32⟩ : BufTy).Contents (Elt F)) : (⟨S512x1, .f32⟩ : BufTy).Contents (Elt F) :=
  addf (Host.dotGeneral dot_S512x128_S128x1_S512x1_1_0_0_1_n_n none
      (maximumf (addf (Host.dotGeneral dot_S512x128_S128x128_S512x128_1_0_0_1_n_n none X W1)
          (broadcastInDim S512x128 ![0, 1] bcast_S1x128_S512x128_0_1 (broadcastInDim S1x128 ![1] bcast_S128_S1x128_1 b1)))
        (broadcastInDim S512x128 ![] bcast_S_S512x128 (constant S_ .f32 0x00000000#32))) W2)
    (broadcastInDim S512x1 ![0, 1] bcast_S1x1_S512x1_0_1 (broadcastInDim S1x1 ![1] bcast_S1_S1x1_1 b2))

/-- The reference's result is the composition of its stretches. -/
theorem res_eq (m : (ℓ : Loc nD τ sig) → Buf (Elt F) ℓ) (c : Dev nD) :
    Cert.ReferenceIdeal.Value.res_main_v63 m c
      = mlpOut (pool (mlp (agg (mlp (agg (m ((c.tc : Thread nD τ).loc main_arg0)) (src (m ((c.tc : Thread nD τ).loc main_arg1))) (dst (m ((c.tc : Thread nD τ).loc main_arg1))))
              (m ((c.tc : Thread nD τ).loc main_arg4)) (m ((c.tc : Thread nD τ).loc main_arg5)) (m ((c.tc : Thread nD τ).loc main_arg6)) (m ((c.tc : Thread nD τ).loc main_arg7)))
            (src (m ((c.tc : Thread nD τ).loc main_arg1))) (dst (m ((c.tc : Thread nD τ).loc main_arg1))))
          (m ((c.tc : Thread nD τ).loc main_arg8)) (m ((c.tc : Thread nD τ).loc main_arg9)) (m ((c.tc : Thread nD τ).loc main_arg10)) (m ((c.tc : Thread nD τ).loc main_arg11)))
        (m ((c.tc : Thread nD τ).loc main_arg3)))
        (m ((c.tc : Thread nD τ).loc main_arg12)) (m ((c.tc : Thread nD τ).loc main_arg13)) (m ((c.tc : Thread nD τ).loc main_arg14)) (m ((c.tc : Thread nD τ).loc main_arg15)) := by
  unfold Cert.ReferenceIdeal.Value.res_main_v63 mlpOut pool mlp agg src dst
  rfl

/-- The host's spelling on the nodes' rows is the perceptron. -/
theorem mlp_eq (X : (⟨S50000x128, .f32⟩ : BufTy).Contents (Elt Ideal)) (W1 : (⟨S128x128, .f32⟩ : BufTy).Contents (Elt Ideal))
    (b1 : (⟨S128, .f32⟩ : BufTy).Contents (Elt Ideal)) (W2 : (⟨S128x128, .f32⟩ : BufTy).Contents (Elt Ideal))
    (b2 : (⟨S128, .f32⟩ : BufTy).Contents (Elt Ideal)) : mlp X W1 b1 W2 b2 = layer X W1 b1 W2 b2 :=
  host_form _ Dots.nodes _ Dots.nodes _ _ _ _ _ X W1 b1 W2 b2

/-- The host's spelling on the pooled rows is the perceptron. -/
theorem mlpOut_eq (X : (⟨S512x128, .f32⟩ : BufTy).Contents (Elt Ideal)) (W1 : (⟨S128x128, .f32⟩ : BufTy).Contents (Elt Ideal))
    (b1 : (⟨S128, .f32⟩ : BufTy).Contents (Elt Ideal)) (W2 : (⟨S128x1, .f32⟩ : BufTy).Contents (Elt Ideal))
    (b2 : (⟨S1, .f32⟩ : BufTy).Contents (Elt Ideal)) : mlpOut X W1 b1 W2 b2 = layer X W1 b1 W2 b2 :=
  host_form _ Dots.pooled _ Dots.pooledOut _ _ _ _ _ X W1 b1 W2 b2

end Cert.ReferenceIdeal.Stages

end
-- ==== Proof.Join.lean ====
/-
  The kernel program and the reference spell their host stretches with dimension records of their own, equal
  field by field. So each stretch — the edges' sources and destinations, the neighbour aggregation, the mean
  pooling — is one function in both programs.
-/
import proofs.«109587_j20572893348711_1_alg».proof.Proof.KStages
import proofs.«109587_j20572893348711_1_alg».proof.Proof.RStages

noncomputable section

namespace Cert.Join

open Idealize.ShloMosaic

theorem src_eq (e : (⟨Cert.KernelIdeal.S2x600000, .i32⟩ : BufTy).Contents (Elt Ideal)) :
    Cert.KernelIdeal.Stages.src (F := Ideal) e = Cert.ReferenceIdeal.Stages.src (F := Ideal) e := rfl

theorem dst_eq (e : (⟨Cert.KernelIdeal.S2x600000, .i32⟩ : BufTy).Contents (Elt Ideal)) :
    Cert.KernelIdeal.Stages.dst (F := Ideal) e = Cert.ReferenceIdeal.Stages.dst (F := Ideal) e := rfl

theorem agg_eq (h : (⟨Cert.KernelIdeal.S50000x128, .f32⟩ : BufTy).Contents (Elt Ideal))
    (s d : (⟨Cert.KernelIdeal.S600000, .i32⟩ : BufTy).Contents (Elt Ideal)) :
    Cert.KernelIdeal.Stages.agg (F := Ideal) h s d = Cert.ReferenceIdeal.Stages.agg (F := Ideal) h s d := rfl

theorem pool_eq (h : (⟨Cert.KernelIdeal.S50000x128, .f32⟩ : BufTy).Contents (Elt Ideal))
    (g : (⟨Cert.KernelIdeal.S50000, .i32⟩ : BufTy).Contents (Elt Ideal)) :
    Cert.KernelIdeal.Stages.pool (F := Ideal) h g = Cert.ReferenceIdeal.Stages.pool (F := Ideal) h g := rfl

end Cert.Join

end
-- ==== Proof.lean ====
/-
  A graph network of two message-passing rounds, a mean pooling over graphs and a regression head, as a TPU program
  and as a plain array program, are one function on the extended reals.

  Both programs aggregate each node's neighbours over the same edge list (gather the source rows, scatter-add onto
  the destination rows, add the node's own row), pool by the same graph numbers, and differ only in how the three
  two-layer perceptrons are computed: the TPU program runs each as a kernel over bands of 5000 rows (and the last
  over its 512 rows at once), with matrix products into zero accumulators and the biases as one-row matrices; the
  plain program as two host products per perceptron. An entry of a perceptron depends on one row of its operand, so
  the bands compute the entries of the whole perceptron, and the bands tile the result: each kernel leaves the
  perceptron of the array it found. The host stretches between the kernels are the same operations in both
  programs. So the two results are the same composition — aggregation, perceptron, aggregation, perceptron, pooling,
  perceptron — of arguments that agree; each entry's sums run over the same terms in both, and nothing has to be
  finite. The kernel program's idealization rewrote no operation, so the preservation claim is empty; the frames
  are the generated ones, the reference's its generated run with the result dropped.
-/
import proofs.«109587_j20572893348711_1_alg».proof.Defs
import proofs.«109587_j20572893348711_1_alg».proof.Proof.Gen.Kernel
import proofs.«109587_j20572893348711_1_alg».proof.Proof.Gen.Kernel.Skeleton
import proofs.«109587_j20572893348711_1_alg».proof.Proof.Gen.Kernel.Launch
import proofs.«109587_j20572893348711_1_alg».proof.Proof.Gen.Kernel.Points
import proofs.«109587_j20572893348711_1_alg».proof.Proof.Gen.Kernel.Frame
import proofs.«109587_j20572893348711_1_alg».proof.Proof.Gen.KernelIdeal
import proofs.«109587_j20572893348711_1_alg».proof.Proof.Gen.KernelIdeal.Skeleton
import proofs.«109587_j20572893348711_1_alg».proof.Proof.Gen.KernelIdeal.Launch
import proofs.«109587_j20572893348711_1_alg».proof.Proof.Gen.KernelIdeal.Points
import proofs.«109587_j20572893348711_1_alg».proof.Proof.Gen.KernelIdeal.Frame
import proofs.«109587_j20572893348711_1_alg».proof.Proof.Gen.ReferenceIdeal
import proofs.«109587_j20572893348711_1_alg».proof.Proof.Gen.Pre_finite_inputs
import proofs.«109587_j20572893348711_1_alg».proof.Proof.Gen.ReferenceIdeal.Run
import proofs.«109587_j20572893348711_1_alg».proof.Proof.Gen.ReferenceIdeal.Read
import proofs.«109587_j20572893348711_1_alg».proof.Proof.KernelRun
import proofs.«109587_j20572893348711_1_alg».proof.Proof.KernelValue
import proofs.«109587_j20572893348711_1_alg».proof.Proof.RStages
import proofs.«109587_j20572893348711_1_alg».proof.Proof.Join
import Idealize.ShloMosaic.Adequacy
import Idealize.ShloMosaic.Init

set_option maxRecDepth 16384

noncomputable section

namespace Cert.Proof

open Idealize.ShloMosaic Idealize.SL.Sem Cert.Perceptron

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The reference's result, read as the composition of its stretches with each perceptron spelling replaced by the
    perceptron, at arguments that agree with the kernel program's, is the kernel program's result function. -/
theorem ref_value
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Value.res_main_v63 (F := Ideal) m' c
      = Cert.KernelIdeal.Chain.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  obtain ⟨a0, a1, a2, a3, a4, a5, a6, a7, a8, a9, a10, a11, a12, a13, a14, a15⟩ := hagree
  rw [Cert.ReferenceIdeal.Stages.res_eq, Cert.ReferenceIdeal.Stages.mlp_eq, Cert.ReferenceIdeal.Stages.mlp_eq,
    Cert.ReferenceIdeal.Stages.mlpOut_eq, a0, a1, a3, a4, a5, a6, a7, a8, a9, a10, a11, a12, a13, a14, a15]
  unfold Cert.KernelIdeal.Chain.spec
  rw [Cert.Join.src_eq, Cert.Join.dst_eq, Cert.Join.agg_eq, Cert.Join.agg_eq, Cert.Join.pool_eq]

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Chain.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Chain.value m ρ c), (h c).2⟩)
      (Cert.KernelIdeal.Whole.run (F := Ideal) m ρ)
  · exact (θ_run Cert.ReferenceIdeal.defs _ _).mono
      (fun r h c => ⟨(h c).1.trans (ref_value m m' c (hagree c)), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
